-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  main_v8
-- ==== Kernel.lean ====
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S64x128 : Shape := ⟨2, ![64, 128]⟩
abbrev S1024x256 : Shape := ⟨2, ![1024, 256]⟩
abbrev S2048x256 : Shape := ⟨2, ![2048, 256]⟩
abbrev S1024x1 : Shape := ⟨2, ![1024, 1]⟩
abbrev S1x2048 : Shape := ⟨2, ![1, 2048]⟩
abbrev S8x128 : Shape := ⟨2, ![8, 128]⟩
abbrev S256x2048 : Shape := ⟨2, ![256, 2048]⟩
abbrev S1024x2048 : Shape := ⟨2, ![1024, 2048]⟩
abbrev S1024 : Shape := ⟨1, ![1024]⟩
abbrev S1 : Shape := ⟨1, ![1]⟩
abbrev S1x1 : Shape := ⟨2, ![1, 1]⟩

abbrev nBuf : Space → Nat
  | .hbm => 16
  | .vmem => 11
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x256, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S1x8192, .f32⟩
  | .hbm, ⟨11, _⟩ => ⟨S64x128, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S2048x256, .f32⟩
  | .local _ .vmem, ⟨3, _⟩ => ⟨S2048x256, .f32⟩
  | .local _ .vmem, ⟨4, _⟩ => ⟨S1024x1, .f32⟩
  | .local _ .vmem, ⟨5, _⟩ => ⟨S1024x1, .f32⟩
  | .local _ .vmem, ⟨6, _⟩ => ⟨S1x2048, .f32⟩
  | .local _ .vmem, ⟨7, _⟩ => ⟨S1x2048, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v37 : BitVec 1 := Scalar.cmpi .eq arg1 c3_i32
  let v38 : BitVec 32 := Scalar.extui v37
  let c0_i32_18 : BitVec 32 := 0#32
  let v39 : BitVec 1 := Scalar.cmpi .ne v38 c0_i32_18
  v39

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  transposes_S8192x1_S1x8192_1_0 : S8192x1.Transposes [1, 0] S1x8192
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S1024x256_S1024x256_0_0 : ∀ a, (![0, 0] : Fin 2 → Nat) a + S1024x256.size a ≤ S1024x256.size a
  h_S1024x256 : 0 < S1024x256.numel
  inb_S2048x256_S2048x256_0_0 : ∀ a, (![0, 0] : Fin 2 → Nat) a + S2048x256.size a ≤ S2048x256.size a
  h_S2048x256 : 0 < S2048x256.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  bitsLt_bf16_f32 : FTy.bits .bf16 < FTy.bits .f32
  transposes_S2048x256_p1_0_S256x2048 : S2048x256.Transposes [1, 0] S256x2048
  broadcasts_S1024x1_S1024x2048 : S1024x1.Broadcasts S1024x2048
  broadcasts_S1x2048_S1024x2048 : S1x2048.Broadcasts S1024x2048
  reduces_S1024x2048_S1024 : S1024x2048.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S1x1 : S1x1.ShapeCasts S1x1
  broadcasts_S1x1_S8x128 : S1x1.Broadcasts S8x128
  reducesTo_S64x128_S_d0_1 : S64x128.ReducesTo [0, 1] S_
  dot_S1024x256_S256x2048_S1024x2048_1_0_0_1_n_n_wf : DotDims.WF S1024x256 S256x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S8192x256.size a
  hwx0_1 : ∀ i : grid0.Coords, EltTy.bits .f32 = 32 ∨ (Rect.block (s := S8192x256) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x8192.size a
  hwx0_3 : ∀ i : grid0.Coords, EltTy.bits .f32 = 32 ∨ (Rect.block (s := S1x8192) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S64x128.size a
  hwx0_4 : ∀ i : grid0.Coords, EltTy.bits .f32 = 32 ∨ (Rect.block (s := S64x128) S8x128.size (cc0_transform_4 i) (hinb0_4 i)).WholeWords (EltTy.packing .f32)

variable [Facts₀]

def dot_S1024x256_S256x2048_S1024x2048_1_0_0_1_n_n : DotDims S1024x256 S256x2048 S1024x2048 where
  lhsContracting := [1]
  rhsContracting := [0]
  lhsNonContracting := [0]
  rhsNonContracting := [1]
  lhsBatch := []
  rhsBatch := []
  wf := dot_S1024x256_S256x2048_S1024x2048_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S256x8192 : Shape := ⟨2, ![256, 8192]⟩

abbrev nBuf : Space → Nat
  | .hbm => 31
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x256, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S256x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x256_S256x8192_1_0 : S8192x256.Transposes [1, 0] S256x8192
  bcast_S_S8192x8192 : S_.BroadcastsInDim S8192x8192 (![] : Fin 0 → Fin S8192x8192.rank)
  reducesTo_S8192x8192_S_d0_1 : S8192x8192.ReducesTo [0, 1] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.Cases.lean ====
/-
  What the body leaves in the accumulator and in the output block, in each of its three control cases, as values.

  The body always loads the four input blocks, adds the scaled tile total to the accumulator and stores the
  accumulator back.  At the first point of a block row (case A) it first stores the zero block, so the accumulator
  it adds to is the zero block; at the other points (cases B and C) it is what the point before left.  At the
  last point of a block row (case C) it also copies the new accumulator into the output block.  Every store and
  load goes through the whole 8 × 128 buffer, so the last store's value is what the buffer holds.
-/
import proofs.«113363_j62895501082691_2_alg».proof.Proof.Gen.KernelIdeal.Frame
import Idealize.ShloMosaic.Lib.Pipeline.Value
import Idealize.ShloMosaic.Lib.Tactic

set_option maxRecDepth 16384

noncomputable section

namespace Cert.KernelIdeal.Cases

open Idealize.ShloMosaic Idealize.ShloMosaic.TcCoe Idealize.SL.Sem Idealize.ShloMosaic.Tactic
open Cert.KernelIdeal Cert.KernelIdeal.Gen

variable {F : FTy → Type} [FloatOps F]

theorem hz : (![0, 0] : Fin 2 → Nat) = fun _ => 0 := funext fun a => by fin_cases a <;> rfl

/-- CASE A (first point of a block row): the accumulator ends at the body's sum over the zero block. -/
theorem scratch_A (c : Dev nD) (i : grid0.Coords) (arg2 : Memref sig .tc .vmem S1024x256 .f32) (harg2 : arg2.IsWhole) (arg3 : Memref sig .tc .vmem S2048x256 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S8x128 .f32) (harg6 : arg6.IsWhole) (arg7 : Memref sig .tc .vmem S8x128 .f32) (harg7 : arg7.IsWhole) (hc0 : cond0_0 i) (hc1 : ¬cond0_1 i)
    (x0 : Vec F S1024x256 .f32) (x1 : Vec F S2048x256 .f32) (x2 : Vec F S1024x1 .f32) (x3 : Vec F S1x2048 .f32) :
    sout0_A_0 c i arg2 harg2 arg3 harg3 arg4 harg4 arg5 harg5 arg6 harg6 arg7 harg7 hc0 hc1 x0 x1 x2 x3 = k0_pay1 (k0_pay3 x0 x1 x2 x3 (k0_pay2 (F := F))) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S8x128) hz]
  simp only [View.readAt_eq_ld, harg2.read_unread, harg3.read_unread, harg4.read_unread, harg5.read_unread, harg7.read_unread,
    View.ld_unit_zero (S := S1024x256) hz, View.ld_unit_zero (S := S2048x256) hz, View.ld_unit_zero (S := S1024x1) hz,
    View.ld_unit_zero (S := S1x2048) hz, View.ld_unit_zero (S := S8x128) hz, View.readCov_unit_zero (S := S8x128) _ hz]

/-- CASE B (a middle point): the accumulator ends at the body's sum over what it held. -/
theorem scratch_B (c : Dev nD) (i : grid0.Coords) (arg2 : Memref sig .tc .vmem S1024x256 .f32) (harg2 : arg2.IsWhole) (arg3 : Memref sig .tc .vmem S2048x256 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S8x128 .f32) (harg6 : arg6.IsWhole) (arg7 : Memref sig .tc .vmem S8x128 .f32) (harg7 : arg7.IsWhole) (hc0 : ¬cond0_0 i) (hc1 : ¬cond0_1 i)
    (x0 : Vec F S1024x256 .f32) (x1 : Vec F S2048x256 .f32) (x2 : Vec F S1024x1 .f32) (x3 : Vec F S1x2048 .f32) (xs0 : Vec F S8x128 .f32) :
    sout0_B_0 c i arg2 harg2 arg3 harg3 arg4 harg4 arg5 harg5 arg6 harg6 arg7 harg7 hc0 hc1 x0 x1 x2 x3 xs0 = k0_pay1 (k0_pay3 x0 x1 x2 x3 xs0) := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero hz]
  simp only [View.readAt_eq_ld, harg2.read_unread, harg3.read_unread, harg4.read_unread, harg5.read_unread, harg7.read_unread,
    View.ld_unit_zero (S := S1024x256) hz, View.ld_unit_zero (S := S2048x256) hz, View.ld_unit_zero (S := S1024x1) hz,
    View.ld_unit_zero (S := S1x2048) hz, View.ld_unit_zero (S := S8x128) hz, View.readCov_unit_zero (S := S8x128) _ hz]

/-- CASE C (last point of a block row): the accumulator ends at the body's sum over what it held, -/
theorem scratch_C (c : Dev nD) (i : grid0.Coords) (arg2 : Memref sig .tc .vmem S1024x256 .f32) (harg2 : arg2.IsWhole) (arg3 : Memref sig .tc .vmem S2048x256 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S8x128 .f32) (harg6 : arg6.IsWhole) (arg7 : Memref sig .tc .vmem S8x128 .f32) (harg7 : arg7.IsWhole) (hc0 : ¬cond0_0 i) (hc1 : cond0_1 i)
    (x0 : Vec F S1024x256 .f32) (x1 : Vec F S2048x256 .f32) (x2 : Vec F S1024x1 .f32) (x3 : Vec F S1x2048 .f32) (xs0 : Vec F S8x128 .f32) :
    sout0_C_0 c i arg2 harg2 arg3 harg3 arg4 harg4 arg5 harg5 arg6 harg6 arg7 harg7 hc0 hc1 x0 x1 x2 x3 xs0 = k0_pay1 (k0_pay3 x0 x1 x2 x3 xs0) := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero hz]
  simp only [View.readAt_eq_ld, harg2.read_unread, harg3.read_unread, harg4.read_unread, harg5.read_unread, harg7.read_unread,
    View.ld_unit_zero (S := S1024x256) hz, View.ld_unit_zero (S := S2048x256) hz, View.ld_unit_zero (S := S1024x1) hz,
    View.ld_unit_zero (S := S1x2048) hz, View.ld_unit_zero (S := S8x128) hz, View.readCov_unit_zero (S := S8x128) _ hz]

/-- and the output block is a copy of it. -/
theorem out_C (c : Dev nD) (i : grid0.Coords) (arg2 : Memref sig .tc .vmem S1024x256 .f32) (harg2 : arg2.IsWhole) (arg3 : Memref sig .tc .vmem S2048x256 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S8x128 .f32) (harg6 : arg6.IsWhole) (arg7 : Memref sig .tc .vmem S8x128 .f32) (harg7 : arg7.IsWhole) (hc0 : ¬cond0_0 i) (hc1 : cond0_1 i)
    (x0 : Vec F S1024x256 .f32) (x1 : Vec F S2048x256 .f32) (x2 : Vec F S1024x1 .f32) (x3 : Vec F S1x2048 .f32) (xs0 : Vec F S8x128 .f32) :
    out0_C_4 c i arg2 harg2 arg3 harg3 arg4 harg4 arg5 harg5 arg6 harg6 arg7 harg7 hc0 hc1 x0 x1 x2 x3 xs0 = k0_pay1 (k0_pay3 x0 x1 x2 x3 xs0) := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz]
  simp only [View.readAt_eq_ld, harg2.read_unread, harg3.read_unread, harg4.read_unread, harg5.read_unread, harg7.read_unread,
    View.ld_unit_zero (S := S1024x256) hz, View.ld_unit_zero (S := S2048x256) hz, View.ld_unit_zero (S := S1024x1) hz,
    View.ld_unit_zero (S := S1x2048) hz, View.ld_unit_zero (S := S8x128) hz, View.readCov_unit_zero (S := S8x128) _ hz]

end Cert.KernelIdeal.Cases

end
-- ==== Proof.LibDotRows.lean ====
/-
  A plain matrix product read at an index.  For shapes [R, K] · [K, J] → [R, J] whose dimension
  numbers contract the left operand's axis 1 with the right operand's axis 0 (no batch axis), the
  sum over the contraction index that `tpu.matmul` and `dot_general` denote at the ideal values is
  the textbook sum over `k : Fin K` of `lhs (r, k) * rhs (k, c)`.  The four coordinate facts about
  the dimension numbers' operand indices are hypotheses: for a record with literal lists each of
  them holds by `rfl`.
-/
import Idealize.ShloMosaic.PureOps.Ideal.Laws
import Idealize.ShloMosaic.Lib.ValueIdx

noncomputable section

open scoped BigOperators

namespace Idealize.ShloMosaic.ValueIdx

open Idealize.ShloMosaic

/-- The contraction sum of a plain [R, K] · [K, J] product at output index `j` is the sum over
    `k : Fin K` of the left operand at `(j 0, k)` times the right operand at `(k, j 1)`. -/
theorem dot_rows_sum {M : Type*} [AddCommMonoid M] {R K J : Nat}
    (d : DotDims ⟨2, ![R, K]⟩ ⟨2, ![K, J]⟩ ⟨2, ![R, J]⟩)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (g : (⟨2, ![R, K]⟩ : Shape).Idx → (⟨2, ![K, J]⟩ : Shape).Idx → M) (j : (⟨2, ![R, J]⟩ : Shape).Idx) :
    ∑ k : d.contr.Idx, g (d.lhsIdx j k) (d.rhsIdx j k) = ∑ k : Fin K, g (ix2 (j 0) k) (ix2 k (j 1)) := by
  rw [← Equiv.sum_comp (contrEquiv1 d K hr hs).symm]
  refine Finset.sum_congr rfl fun k _ => ?_
  have e1 : d.lhsIdx j ((contrEquiv1 d K hr hs).symm k) = ix2 (j 0) k := by
    funext a
    match a with
    | ⟨0, _⟩ => exact Fin.ext (h1 j _)
    | ⟨1, _⟩ => exact Fin.ext ((h2 j _).trans (contrEquiv1_symm_val d K hr hs k))
  have e2 : d.rhsIdx j ((contrEquiv1 d K hr hs).symm k) = ix2 k (j 1) := by
    funext a
    match a with
    | ⟨0, _⟩ => exact Fin.ext ((h3 j _).trans (contrEquiv1_symm_val d K hr hs k))
    | ⟨1, _⟩ => exact Fin.ext (h4 j _)
  exact congrArg₂ g e1 e2

/-- A `tpu.matmul` into the zero accumulator, at the ideal values, read at `(r, c)`. -/
theorem matmul_zero_rows {R K J : Nat} {φ₁ φ₂ : FTy}
    (d : DotDims ⟨2, ![R, K]⟩ ⟨2, ![K, J]⟩ ⟨2, ![R, J]⟩) (prec : Option ContractPrecision)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.matmul d prec lhs rhs (constant ⟨2, ![R, J]⟩ .f32 0x00000000#32) (ix2 r c)
      = ∑ k : Fin K, lhs (ix2 r k) * rhs (ix2 k c) := by
  rw [Ideal.matmul_constant_zero_apply]
  exact dot_rows_sum d hr hs h1 h2 h3 h4 (fun a b => lhs a * rhs b) (ix2 r c)

/-- The host's `dot_general`, at the ideal values, read at `(r, c)`. -/
theorem dotGeneral_rows {R K J : Nat} {φ₁ φ₂ : FTy}
    (d : DotDims ⟨2, ![R, K]⟩ ⟨2, ![K, J]⟩ ⟨2, ![R, J]⟩) (prec : Option ContractPrecision) (sched : HostSchedule)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.dotGeneral d prec sched lhs rhs (ix2 r c) = ∑ k : Fin K, lhs (ix2 r k) * rhs (ix2 k c) := by
  rw [Ideal.dotGeneral_apply]
  exact dot_rows_sum d hr hs h1 h2 h3 h4 (fun a b => lhs a * rhs b) (ix2 r c)

end Idealize.ShloMosaic.ValueIdx

end
-- ==== Proof.LibLayout.lean ====
/-
  Layout operations around a unit MIDDLE or TRAILING axis, read at an index written by coordinates,
  for any element type and any extents: a shape cast that drops or inserts a unit axis in the middle
  ([a,1,b] ↔ [a,b]), the "keepdims" column of a vector ([a] → [a,1]) and its broadcast along the rows
  ([a,1] → [a,b]).  Each is the library's read-at-an-index lemma with the row-major arithmetic done.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A vector `[a]` cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column at row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ValueIdx
-- ==== Proof.LibLayout3.lean ====
/-
  Layout operations at rank 3 read at an index written by coordinates, for any element type and any extents:
  a shape cast that appends a unit axis ([a,b] → [a,b,1]); a broadcast along a trailing unit axis
  ([a,b,1] → [a,b,c]) and along a leading unit axis ([1,b,c] → [a,b,c]); and, for a reduction over ONE axis,
  the index that a reduced index and a coordinate on the dropped axis name — the middle axis of a rank-3 array,
  the last axis of a rank-2 array.
-/
import Idealize.ShloMosaic.Lib.Pipeline.Value
import Idealize.ShloMosaic.Lib.ValueIdx
import Idealize.ShloMosaic.PureOps.Reduce

namespace Idealize.ShloMosaic.ValueIdx

open Idealize.ShloMosaic

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- Dropping the MIDDLE axis of `[a, b, c]`: the index over `(i, k)` whose middle coordinate is `d` is `(i, d, k)`. -/
theorem lift_mid_ix2 {a b c : ℕ} (h : (⟨3, ![a, b, c]⟩ : Shape).Reduces [1] (⟨2, ![a, c]⟩ : Shape)) (i : Fin a) (k : Fin c)
    (d : Fin ((⟨3, ![a, b, c]⟩ : Shape).size 1)) :
    h.lift (ix2 i k) d = ix3 i (⟨d.val, d.isLt⟩ : Fin b) k := by
  funext ax; apply Fin.ext
  fin_cases ax <;> rfl

/-- Dropping the LAST axis of `[a, b]`: the index over `i` whose last coordinate is `k` is `(i, k)`. -/
theorem lift_last_ix1 {a b : ℕ} (h : (⟨2, ![a, b]⟩ : Shape).Reduces [1] (⟨1, ![a]⟩ : Shape)) (i : Fin a)
    (k : Fin ((⟨2, ![a, b]⟩ : Shape).size 1)) :
    h.lift (ix1 i) k = ix2 i (⟨k.val, k.isLt⟩ : Fin b) := by
  funext ax; apply Fin.ext
  fin_cases ax <;> rfl

end Idealize.ShloMosaic.ValueIdx
-- ==== Proof.Body.lean ====
/-
  The kernel body's arithmetic at one grid point, read entry by entry on the extended reals.

  From a block `x` of 1024 rows and a block `y` of 2048 rows (256 columns each), the column `a` of the
  1024 squared row norms of `x` and the row `b` of the 2048 squared row norms of `y`, the body forms, for
  every pair `(p, q)`, the number `exp (max ((a p + b q) - 2 * ⟨x p, y q⟩) 0 * (-1/2))`, sums these over
  `q`, then over `p`, multiplies the total by `2⁻¹⁰` and adds that one number to every entry of the
  8 × 128 accumulator.
-/
import proofs.«113363_j62895501082691_2_alg».proof.Proof.Gen.KernelIdeal.Skeleton
import proofs.«113363_j62895501082691_2_alg».proof.Proof.LibDotRows
import proofs.«113363_j62895501082691_2_alg».proof.Proof.LibLayout
import proofs.«113363_j62895501082691_2_alg».proof.Proof.LibLayout3
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Body

open Idealize.ShloMosaic Idealize.ShloMosaic.ValueIdx Cert.KernelIdeal Cert.KernelIdeal.Gen

/-- The entry for the pair `(p, q)` of a row of the first block and a row of the second. -/
def entry (x0 : Vec Ideal S1024x256 .f32) (x1 : Vec Ideal S2048x256 .f32) (x2 : Vec Ideal S1024x1 .f32)
    (x3 : Vec Ideal S1x2048 .f32) (p : Fin 1024) (q : Fin 2048) : EReal :=
  Ideal.exp (max ((x2 (ix2 p 0) + x3 (ix2 0 q))
      - Ideal.ofBits .f32 0x40000000#32 * ∑ k : Fin 256, x0 (ix2 p k) * x1 (ix2 q k))
    (Ideal.ofBits .f32 0x00000000#32) * Ideal.ofBits .f32 0xBF000000#32)

/-- The sum of the entries over the whole tile. -/
def tileSum (x0 : Vec Ideal S1024x256 .f32) (x1 : Vec Ideal S2048x256 .f32) (x2 : Vec Ideal S1024x1 .f32)
    (x3 : Vec Ideal S1x2048 .f32) : EReal :=
  ∑ p : Fin 1024, ∑ q : Fin 2048, entry x0 x1 x2 x3 p q

/-- The product of the first block with the transposed second block, at `(p, q)`: the inner product of row `p`
    of the first with row `q` of the second (the change of float format before the product is the identity). -/
theorem dot_apply (x0 : Vec Ideal S1024x256 .f32) (x1 : Vec Ideal S2048x256 .f32) (p : Fin 1024) (q : Fin 2048) :
    matmul (F := Ideal) dot_S1024x256_S256x2048_S1024x2048_1_0_0_1_n_n none (truncf .bf16 x0 bitsLt_bf16_f32)
        (transpose S256x2048 [1, 0] (truncf .bf16 x1 bitsLt_bf16_f32) transposes_S2048x256_p1_0_S256x2048)
        (constant S1024x2048 .f32 0x00000000#32) (ix2 p q)
      = ∑ k : Fin 256, x0 (ix2 p k) * x1 (ix2 q k) := by
  refine (matmul_zero_rows dot_S1024x256_S256x2048_S1024x2048_1_0_0_1_n_n none rfl rfl
    (fun _ _ => rfl) (fun _ _ => rfl) (fun _ _ => rfl) (fun _ _ => rfl) _ _ p q).trans ?_
  refine Finset.sum_congr rfl fun k _ => ?_
  rw [transpose_ix2_apply]
  rfl

/-- The 1024 × 2048 array of the tile's entries, as the body computes it from the four loaded blocks. -/
def entries (x0 : Vec Ideal S1024x256 .f32) (x1 : Vec Ideal S2048x256 .f32) (x2 : Vec Ideal S1024x1 .f32)
    (x3 : Vec Ideal S1x2048 .f32) : FVec Ideal S1024x2048 .f32 :=
  exp (mulf (maximumf (subf
      (addf (broadcastTo S1024x2048 (shapeCast S1024x1 x2 shapeCasts_S1024x1_S1024x1) broadcasts_S1024x1_S1024x2048)
        (broadcastTo S1024x2048 (shapeCast S1x2048 x3 shapeCasts_S1x2048_S1x2048) broadcasts_S1x2048_S1024x2048))
      (mulf (broadcast S1024x2048 (Scalar.ofBits .f32 0x40000000#32))
        (matmul dot_S1024x256_S256x2048_S1024x2048_1_0_0_1_n_n none (truncf .bf16 x0 bitsLt_bf16_f32)
          (transpose S256x2048 [1, 0] (truncf .bf16 x1 bitsLt_bf16_f32) transposes_S2048x256_p1_0_S256x2048)
          (constant S1024x2048 .f32 0x00000000#32))))
    (broadcast S1024x2048 (Scalar.ofBits .f32 0x00000000#32)))
    (broadcast S1024x2048 (Scalar.ofBits .f32 0xBF000000#32)))

/-- Entry `(p, q)` of that array: the column of norms is read at row `p`, the row of norms at column `q`. -/
theorem entries_apply (x0 : Vec Ideal S1024x256 .f32) (x1 : Vec Ideal S2048x256 .f32) (x2 : Vec Ideal S1024x1 .f32)
    (x3 : Vec Ideal S1x2048 .f32) (p : Fin 1024) (q : Fin 2048) :
    entries x0 x1 x2 x3 (ix2 p q) = entry x0 x1 x2 x3 p q := by
  unfold entries entry
  show Ideal.exp (max ((broadcastTo S1024x2048 (shapeCast S1024x1 x2 shapeCasts_S1024x1_S1024x1) broadcasts_S1024x1_S1024x2048 (ix2 p q)
      + broadcastTo S1024x2048 (shapeCast S1x2048 x3 shapeCasts_S1x2048_S1x2048) broadcasts_S1x2048_S1024x2048 (ix2 p q))
      - Ideal.ofBits .f32 0x40000000#32 * matmul (F := Ideal) dot_S1024x256_S256x2048_S1024x2048_1_0_0_1_n_n none (truncf .bf16 x0 bitsLt_bf16_f32)
          (transpose S256x2048 [1, 0] (truncf .bf16 x1 bitsLt_bf16_f32) transposes_S2048x256_p1_0_S256x2048)
          (constant S1024x2048 .f32 0x00000000#32) (ix2 p q))
      (Ideal.ofBits .f32 0x00000000#32) * Ideal.ofBits .f32 0xBF000000#32) = _
  rw [dot_apply, broadcastTo_a1_ab_apply, broadcastTo_1b_ab_apply, shapeCast_self, shapeCast_self]

/-- Dropping the FIRST axis of `[a, b]`: the index over `u` whose first coordinate is `k` is `(k, u)`. -/
theorem lift_first_ix1 {a b : ℕ} (h : (⟨2, ![a, b]⟩ : Shape).Reduces [0] (⟨1, ![b]⟩ : Shape)) (u : Fin b)
    (k : Fin ((⟨2, ![a, b]⟩ : Shape).size 0)) :
    h.lift (ix1 u) k = ix2 (⟨k.val, k.isLt⟩ : Fin a) u := by
  funext ax; apply Fin.ext
  fin_cases ax <;> rfl

/-- The sums of the entries along each of the 1024 rows. -/
def rowSums (x0 : Vec Ideal S1024x256 .f32) (x1 : Vec Ideal S2048x256 .f32) (x2 : Vec Ideal S1024x1 .f32)
    (x3 : Vec Ideal S1x2048 .f32) : FVec Ideal S1024 .f32 :=
  multiReduction .add [1] S1024 (entries x0 x1 x2 x3) 0x00000000#32 reduces_S1024x2048_S1024 (.inl rfl) rfl

theorem rowSums_apply (x0 : Vec Ideal S1024x256 .f32) (x1 : Vec Ideal S2048x256 .f32) (x2 : Vec Ideal S1024x1 .f32)
    (x3 : Vec Ideal S1x2048 .f32) (p : Fin 1024) :
    rowSums x0 x1 x2 x3 (ix1 p) = ∑ q : Fin 2048, entry x0 x1 x2 x3 p q := by
  unfold rowSums
  refine (Ideal.multiReduction_add_single (entries x0 x1 x2 x3) 0x00000000#32 reduces_S1024x2048_S1024 (.inl rfl) rfl
    (ix1 p)).trans ?_
  refine Finset.sum_congr rfl fun q _ => ?_
  rw [lift_last_ix1]
  exact entries_apply x0 x1 x2 x3 p _

/-- The sum of the 1024 row sums: one number, the tile's total. -/
def total (x0 : Vec Ideal S1024x256 .f32) (x1 : Vec Ideal S2048x256 .f32) (x2 : Vec Ideal S1024x1 .f32)
    (x3 : Vec Ideal S1x2048 .f32) : FVec Ideal S1 .f32 :=
  multiReduction .add [0] S1 (shapeCast S1024x1 (rowSums x0 x1 x2 x3) shapeCasts_S1024_S1024x1) 0x00000000#32
    reduces_S1024x1_S1 (.inl rfl) rfl

theorem total_apply (x0 : Vec Ideal S1024x256 .f32) (x1 : Vec Ideal S2048x256 .f32) (x2 : Vec Ideal S1024x1 .f32)
    (x3 : Vec Ideal S1x2048 .f32) (u : Fin 1) :
    total x0 x1 x2 x3 (ix1 u) = tileSum x0 x1 x2 x3 := by
  unfold total tileSum
  refine (Ideal.multiReduction_add_single (shapeCast S1024x1 (rowSums x0 x1 x2 x3) shapeCasts_S1024_S1024x1) 0x00000000#32
    reduces_S1024x1_S1 (.inl rfl) rfl (ix1 u)).trans ?_
  refine Finset.sum_congr rfl fun p _ => ?_
  rw [lift_first_ix1, shapeCast_a_a1_apply]
  exact rowSums_apply x0 x1 x2 x3 _

/-- THE PAYLOAD at an entry: the accumulator's entry plus the tile's total times `2⁻¹⁰` — the same number at every
    one of the 8 × 128 entries. -/
theorem pay3_apply (x0 : Vec Ideal S1024x256 .f32) (x1 : Vec Ideal S2048x256 .f32) (x2 : Vec Ideal S1024x1 .f32)
    (x3 : Vec Ideal S1x2048 .f32) (acc : Vec Ideal S8x128 .f32) (r : Fin 8) (l : Fin 128) :
    k0_pay3 (F := Ideal) x0 x1 x2 x3 acc (ix2 r l)
      = acc (ix2 r l) + tileSum x0 x1 x2 x3 * Ideal.ofBits .f32 0x3A800000#32 := by
  show acc (ix2 r l) + broadcastTo S8x128 (shapeCast S1x1 (mulf (shapeCast S1x1 (total x0 x1 x2 x3) shapeCasts_S1_S1x1)
      (broadcast S1x1 (Scalar.ofBits (F := Ideal) .f32 0x3A800000#32))) shapeCasts_S1x1_S1x1) broadcasts_S1x1_S8x128 (ix2 r l) = _
  congr 1
  rw [broadcastTo_apply _ broadcasts_S1x1_S8x128 (ix2 r l) (ix2 (0 : Fin 1) (0 : Fin 1))
    (fun a => by match a with | ⟨0, _⟩ => rfl | ⟨1, _⟩ => rfl), shapeCast_self]
  show shapeCast S1x1 (total x0 x1 x2 x3) shapeCasts_S1_S1x1 (ix2 (0 : Fin 1) (0 : Fin 1)) * Ideal.ofBits .f32 0x3A800000#32 = _
  rw [shapeCast_a_a1_apply, total_apply]

end Cert.KernelIdeal.Body

end
-- ==== Proof.Chain.lean ====
/-
  The accumulator across the grid.  The 32 grid points run in order `t = 4 i + j` (block row `i` of 8, tile `j` of 4
  along it).  Every entry of the 8 × 128 accumulator holds ONE number after each point: at `j = 0` it restarts
  from zero, and each point adds its tile's total times `2⁻¹⁰`.  So after the last point of block row `i` the
  number is `0 + T(4i)·c + T(4i+1)·c + T(4i+2)·c + T(4i+3)·c`, and that is what the point copies into the
  output block.  Proved by induction on the point, one step per control case.
-/
import proofs.«113363_j62895501082691_2_alg».proof.Proof.Cases
import proofs.«113363_j62895501082691_2_alg».proof.Proof.Body

set_option maxRecDepth 16384

noncomputable section

namespace Cert.KernelIdeal.Chain

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The factor a tile's total is stored with. -/
abbrev cst : EReal := Ideal.ofBits .f32 0x3A800000#32

/-- The total of the tile at grid point `t`, from the four blocks the point reads. -/
def T (c : Dev nD) (t : Fin cfg0.N) : EReal :=
  Body.tileSum (iblk m c 0 t) (iblk m c 1 t) (iblk m c 2 t) (iblk m c 3 t)

/-- The number every accumulator entry holds after point `n`. -/
def acc (c : Dev nD) : (n : ℕ) → n < cfg0.N → EReal
  | 0, h => 0 + T m c ⟨0, h⟩ * cst
  | n + 1, h => (if (n + 1) % 4 = 0 then 0 else acc c n (Nat.lt_of_succ_lt h)) + T m c ⟨n + 1, h⟩ * cst

theorem acc_start (c : Dev nD) (n : ℕ) (h : n < cfg0.N) (h0 : n % 4 = 0) : acc m c n h = 0 + T m c ⟨n, h⟩ * cst := by
  cases n with
  | zero => rfl
  | succ n => show (if (n + 1) % 4 = 0 then 0 else _) + _ = _; rw [if_pos h0]

theorem acc_step (c : Dev nD) (n : ℕ) (h : n + 1 < cfg0.N) (h0 : ¬(n + 1) % 4 = 0) :
    acc m c (n + 1) h = acc m c n (Nat.lt_of_succ_lt h) + T m c ⟨n + 1, h⟩ * cst := by
  show (if (n + 1) % 4 = 0 then 0 else _) + _ = _; rw [if_neg h0]

/-- The body's stored value over a constant accumulator is constant: the old number plus the scaled tile total. -/
theorem pay_const (x0 : Vec Ideal S1024x256 .f32) (x1 : Vec Ideal S2048x256 .f32) (x2 : Vec Ideal S1024x1 .f32)
    (x3 : Vec Ideal S1x2048 .f32) (a : EReal) :
    k0_pay1 (F := Ideal) (k0_pay3 x0 x1 x2 x3 (fun _ => a)) = fun _ => a + Body.tileSum x0 x1 x2 x3 * cst := by
  funext idx
  obtain ⟨r, l, rfl⟩ : ∃ (r : Fin 8) (l : Fin 128), idx = ix2 r l := ⟨idx 0, idx 1, eq_ix2 idx⟩
  show shapeCast S8x128 (k0_pay3 x0 x1 x2 x3 (fun _ => a)) shapeCasts_S8x128_S8x128 (ix2 r l) = _
  rw [shapeCast_self]
  exact Body.pay3_apply x0 x1 x2 x3 (fun _ => a) r l

/-- The block the first point of a row stores is the zero block. -/
theorem pay2_zero : k0_pay2 (F := Ideal) = fun _ => (0 : EReal) := by
  funext idx
  show shapeCast S8x128 (broadcast S8x128 (Scalar.ofBits (F := Ideal) .f32 0x00000000#32)) shapeCasts_S8x128_S8x128 idx = 0
  rw [shapeCast_self]
  exact Ideal.ofBits_zero_f32

/-- After every point the accumulator is constant at `acc`. -/
theorem scratch_eq (c : Dev nD) : ∀ (n : ℕ) (h : n < cfg0.N), (outsAt0 m c n h).2 = fun _ => acc m c n h
  | 0, h => by
    rw [outsAt0_A m c (⟨0, h⟩ : Fin cfg0.N) rfl (by dsimp only; omega)]
    dsimp only
    refine (Cases.scratch_A (F := Ideal) c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) scM0_0 (Memref.isWhole_whole _) _ _ (iblk m c 0 (⟨0, h⟩ : Fin cfg0.N)) (iblk m c 1 (⟨0, h⟩ : Fin cfg0.N)) (iblk m c 2 (⟨0, h⟩ : Fin cfg0.N)) (iblk m c 3 (⟨0, h⟩ : Fin cfg0.N))).trans ?_
    refine (congrArg (fun z => k0_pay1 (F := Ideal) (k0_pay3 (iblk m c 0 (⟨0, h⟩ : Fin cfg0.N)) (iblk m c 1 (⟨0, h⟩ : Fin cfg0.N)) (iblk m c 2 (⟨0, h⟩ : Fin cfg0.N)) (iblk m c 3 (⟨0, h⟩ : Fin cfg0.N)) z)) pay2_zero).trans ?_
    exact pay_const (iblk m c 0 (⟨0, h⟩ : Fin cfg0.N)) (iblk m c 1 (⟨0, h⟩ : Fin cfg0.N)) (iblk m c 2 (⟨0, h⟩ : Fin cfg0.N)) (iblk m c 3 (⟨0, h⟩ : Fin cfg0.N)) 0
  | n + 1, h => by
    have hN : cfg0.N = 32 := N_0
    by_cases h0 : (n + 1) % 4 = 0
    · rw [outsAt0_A m c (⟨n + 1, h⟩ : Fin cfg0.N) h0 (by dsimp only; omega)]
      dsimp only
      refine (Cases.scratch_A (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) scM0_0 (Memref.isWhole_whole _) _ _ (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N))).trans ?_
      refine (congrArg (fun z => k0_pay1 (F := Ideal) (k0_pay3 (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) z)) pay2_zero).trans ?_
      refine (pay_const (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) 0).trans ?_
      funext _
      exact (acc_start m c (n + 1) h h0).symm
    · by_cases h1 : (n + 1) % 4 = 3
      · rw [outsAt0_C m c (⟨n + 1, h⟩ : Fin cfg0.N) h0 h1]
        dsimp only
        refine (Cases.scratch_C (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) scM0_0 (Memref.isWhole_whole _) _ _ (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) _).trans ?_
        refine (congrArg (fun z => k0_pay1 (F := Ideal) (k0_pay3 (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) z)) (scratch_eq c n (Nat.lt_of_succ_lt h))).trans ?_
        refine (pay_const (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) _).trans ?_
        funext _
        exact (acc_step m c n h h0).symm
      · rw [outsAt0_B m c (⟨n + 1, h⟩ : Fin cfg0.N) h0 h1]
        dsimp only
        refine (Cases.scratch_B (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) scM0_0 (Memref.isWhole_whole _) _ _ (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) _).trans ?_
        refine (congrArg (fun z => k0_pay1 (F := Ideal) (k0_pay3 (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) z)) (scratch_eq c n (Nat.lt_of_succ_lt h))).trans ?_
        refine (pay_const (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) _).trans ?_
        funext _
        exact (acc_step m c n h h0).symm

/-- At the last point of a block row the output block is constant at the same number. -/
theorem out_eq (c : Dev nD) (n : ℕ) (h : n < cfg0.N) (h1 : n % 4 = 3) : (outsAt0 m c n h).1 = fun _ => acc m c n h := by
  cases n with
  | zero => exact absurd h1 (by decide)
  | succ n =>
    have h0 : ¬(n + 1) % 4 = 0 := by omega
    rw [outsAt0_C m c (⟨n + 1, h⟩ : Fin cfg0.N) h0 h1]
    dsimp only
    refine (Cases.out_C (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) scM0_0 (Memref.isWhole_whole _) _ _ (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) _).trans ?_
    refine (congrArg (fun z => k0_pay1 (F := Ideal) (k0_pay3 (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) z)) (scratch_eq m c n (Nat.lt_of_succ_lt h))).trans ?_
    refine (pay_const (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) _).trans ?_
    funext _
    exact (acc_step m c n h h0).symm

/-- The number after the last point of block row `i`: zero, then the row's four scaled tile totals in order. -/
theorem acc_row (c : Dev nD) (i : ℕ) (h : 4 * i + 3 < cfg0.N) :
    acc m c (4 * i + 3) h
      = 0 + T m c ⟨4 * i, by omega⟩ * cst + T m c ⟨4 * i + 1, by omega⟩ * cst + T m c ⟨4 * i + 2, by omega⟩ * cst
        + T m c ⟨4 * i + 3, h⟩ * cst := by
  rw [acc_step m c (4 * i + 2) h (by omega), acc_step m c (4 * i + 1) (by omega) (by omega),
    acc_step m c (4 * i) (by omega) (by omega), acc_start m c (4 * i) (by omega) (by omega)]

end Cert.KernelIdeal.Chain

end
-- ==== Proof.TileScale.lean ====
/-
  A tile's partial sum is stored as its 1/1024-th part in every one of the 8 × 128 = 1024 entries of an output block,
  and the entries are summed again afterwards.  On the extended reals this gives the partial sum back exactly,
  whatever its value: repeated addition of one extended real is multiplication by the number of copies, and
  `n * (1/n) = 1` among the finite reals.
-/
import Mathlib.Data.EReal.Inv

namespace Cert.TileScale

/-- `n` copies of the `1/n`-th part of an extended real add up to it (`n ≠ 0`). -/
theorem nsmul_mul_inv (n : ℕ) (hn : n ≠ 0) (T : EReal) :
    n • (T * (((1 : ℝ) / (n : ℝ) : ℝ) : EReal)) = T := by
  have hn' : (n : ℝ) ≠ 0 := Nat.cast_ne_zero.mpr hn
  have h1 : ((n : ℕ) : EReal) * (((1 : ℝ) / (n : ℝ) : ℝ) : EReal) = 1 := by
    rw [← EReal.coe_coe_eq_natCast, ← EReal.coe_mul, mul_one_div_cancel hn', EReal.coe_one]
  rw [EReal.nsmul_eq_mul, mul_comm T, ← mul_assoc, h1, one_mul]

end Cert.TileScale
-- ==== Proof.Spec.lean ====
/-
  The mean of a Gaussian kernel matrix, and why summing it tile by tile gives the same number.

  For two arrays `x`, `y` of 8192 rows and 256 columns, `gauss x y n m` is
  `exp (max ((‖x n‖² + ‖y m‖²) - 2 * ⟨x n, y m⟩) 0 * (-1/2))` on the extended reals, and the quantity of
  interest is the sum of `gauss x y n m` over all 8192 × 8192 pairs.

  The rows split into 8 blocks of 1024 and (for the second array) 4 blocks of 2048, which cuts the pairs into
  8 × 4 tiles.  An output of 64 × 128 entries whose block `i` (8 rows) holds in every entry the four tile sums of
  block row `i`, each multiplied by 1/1024, has as the sum of its 8192 entries exactly the sum over all pairs:
  each block contributes 1024 copies of `T₀/1024 + T₁/1024 + T₂/1024 + T₃/1024`, and 1024 copies of `T/1024`
  add up to `T` for every extended real `T`.  Only commutativity and associativity of the sum are used besides.
-/
import Idealize.ShloMosaic.PureOps.Ideal
import Idealize.ShloMosaic.Lib.ValueIdx
import proofs.«113363_j62895501082691_2_alg».proof.Proof.TileScale

noncomputable section

open scoped BigOperators

namespace Cert.GaussMean

open Idealize.ShloMosaic Idealize.ShloMosaic.ValueIdx

/-- The shape of both arguments. -/
abbrev SA : Shape := ⟨2, ![8192, 256]⟩

/-- The squared norm of row `n`. -/
def normSq (x : SA.Idx → EReal) (n : Fin 8192) : EReal := ∑ k : Fin 256, x (ix2 n k) * x (ix2 n k)

/-- The inner product of row `n` of `x` with row `m` of `y`. -/
def dot (x y : SA.Idx → EReal) (n m : Fin 8192) : EReal := ∑ k : Fin 256, x (ix2 n k) * y (ix2 m k)

/-- The Gaussian of the clamped squared distance between row `n` of `x` and row `m` of `y`. -/
def gauss (x y : SA.Idx → EReal) (n m : Fin 8192) : EReal :=
  Ideal.exp (max ((normSq x n + normSq y m) - Ideal.ofBits .f32 0x40000000#32 * dot x y n m)
    (Ideal.ofBits .f32 0x00000000#32) * Ideal.ofBits .f32 0xBF000000#32)

/-- The mean over all 8192 × 8192 pairs: their sum divided by `2²⁶` (the pattern `0x4C800000`). -/
def mean (x y : SA.Idx → EReal) : EReal :=
  Ideal.div (∑ n, ∑ m, gauss x y n m) (Ideal.ofBits .f32 0x4C800000#32)

/-- Row `p` of block `i` among 8 blocks of 1024 rows. -/
def rowOf (i : Fin 8) (p : Fin 1024) : Fin 8192 := ⟨1024 * i.val + p.val, by omega⟩

/-- Row `q` of block `j` among 4 blocks of 2048 rows. -/
def colOf (j : Fin 4) (q : Fin 2048) : Fin 8192 := ⟨2048 * j.val + q.val, by omega⟩

/-- Row `r` of block `i` among 8 blocks of 8 rows. -/
def outRow (i : Fin 8) (r : Fin 8) : Fin 64 := ⟨8 * i.val + r.val, by omega⟩

/-- A sum over 8192 rows, block by block of 1024. -/
theorem sum_rows {M : Type*} [AddCommMonoid M] (f : Fin 8192 → M) :
    ∑ n, f n = ∑ i : Fin 8, ∑ p : Fin 1024, f (rowOf i p) := by
  rw [← Equiv.sum_comp (finProdFinEquiv : Fin 8 × Fin 1024 ≃ Fin 8192) f, Fintype.sum_prod_type]
  refine Finset.sum_congr rfl fun i _ => Finset.sum_congr rfl fun p _ => congrArg f (Fin.ext ?_)
  show p.val + 1024 * i.val = 1024 * i.val + p.val
  omega

/-- A sum over 8192 rows, block by block of 2048. -/
theorem sum_cols {M : Type*} [AddCommMonoid M] (f : Fin 8192 → M) :
    ∑ m, f m = ∑ j : Fin 4, ∑ q : Fin 2048, f (colOf j q) := by
  rw [← Equiv.sum_comp (finProdFinEquiv : Fin 4 × Fin 2048 ≃ Fin 8192) f, Fintype.sum_prod_type]
  refine Finset.sum_congr rfl fun j _ => Finset.sum_congr rfl fun q _ => congrArg f (Fin.ext ?_)
  show q.val + 2048 * j.val = 2048 * j.val + q.val
  omega

/-- A sum over 64 rows, block by block of 8. -/
theorem sum_outRows {M : Type*} [AddCommMonoid M] (f : Fin 64 → M) :
    ∑ R, f R = ∑ i : Fin 8, ∑ r : Fin 8, f (outRow i r) := by
  rw [← Equiv.sum_comp (finProdFinEquiv : Fin 8 × Fin 8 ≃ Fin 64) f, Fintype.sum_prod_type]
  refine Finset.sum_congr rfl fun i _ => Finset.sum_congr rfl fun r _ => congrArg f (Fin.ext ?_)
  show r.val + 8 * i.val = 8 * i.val + r.val
  omega

/-- The sum of `g` over the tile `(i, j)`. -/
def tile (g : Fin 8192 → Fin 8192 → EReal) (i : Fin 8) (j : Fin 4) : EReal :=
  ∑ p : Fin 1024, ∑ q : Fin 2048, g (rowOf i p) (colOf j q)

/-- The factor every tile sum is stored with. -/
abbrev c1024 : EReal := (((1 : ℝ) / ((1024 : ℕ) : ℝ) : ℝ) : EReal)

/-- What every entry of output block `i` holds: zero, then the four scaled tile sums added in order. -/
def blockVal (g : Fin 8192 → Fin 8192 → EReal) (i : Fin 8) : EReal :=
  0 + tile g i 0 * c1024 + tile g i 1 * c1024 + tile g i 2 * c1024 + tile g i 3 * c1024

/-- All pairs, tile by tile. -/
theorem sum_pairs (g : Fin 8192 → Fin 8192 → EReal) :
    ∑ n, ∑ m, g n m = ∑ i : Fin 8, ∑ j : Fin 4, tile g i j := by
  refine (sum_rows fun n => ∑ m, g n m).trans (Finset.sum_congr rfl fun i _ => ?_)
  refine (Finset.sum_congr rfl fun p _ => sum_cols (g (rowOf i p))).trans ?_
  exact Finset.sum_comm

/-- 1024 copies of a block's value are its four tile sums. -/
theorem nsmul_blockVal (g : Fin 8192 → Fin 8192 → EReal) (i : Fin 8) :
    1024 • blockVal g i = ∑ j : Fin 4, tile g i j := by
  unfold blockVal
  rw [zero_add, nsmul_add, nsmul_add, nsmul_add, Cert.TileScale.nsmul_mul_inv 1024 (by decide),
    Cert.TileScale.nsmul_mul_inv 1024 (by decide), Cert.TileScale.nsmul_mul_inv 1024 (by decide),
    Cert.TileScale.nsmul_mul_inv 1024 (by decide), Fin.sum_univ_four]

/-- An output of 64 × 128 entries whose block `i` holds `blockVal g i` everywhere sums to the sum over all pairs. -/
theorem sum_out (g : Fin 8192 → Fin 8192 → EReal) (G : (⟨2, ![64, 128]⟩ : Shape).Idx → EReal)
    (hG : ∀ (i : Fin 8) (r : Fin 8) (l : Fin 128), G (ix2 (outRow i r) l) = blockVal g i) :
    ∑ idx, G idx = ∑ n, ∑ m, g n m := by
  rw [sum_idx2, sum_outRows, sum_pairs]
  refine Finset.sum_congr rfl fun i _ => ?_
  rw [← nsmul_blockVal]
  have h : ∀ r ∈ (Finset.univ : Finset (Fin 8)), (∑ l : Fin 128, G (ix2 (outRow i r) l)) = 128 • blockVal g i := by
    intro r _
    rw [Finset.sum_congr rfl fun l _ => hG i r l, Finset.sum_const, Finset.card_univ, Fintype.card_fin]
  rw [Finset.sum_congr rfl h, Finset.sum_const, Finset.card_univ, Fintype.card_fin, ← mul_nsmul]

end Cert.GaussMean

end
-- ==== Proof.Inputs.lean ====
/-
  What the four input blocks hold at grid point `t = 4 i + j`, in terms of the two argument arrays `x` and `y`:
  block `i` of the rows of `x` (1024 rows), block `j` of the rows of `y` (2048 rows), the squared norms of those
  rows of `x` as a column, and the squared norms of those rows of `y` as a row.  The two norm arrays are computed
  before the grid starts, as the row sums of the entrywise squares; the second is then laid out as one row.
  So the tile total at `t` is the sum of the Gaussian entries over tile `(i, j)`.
-/
import proofs.«113363_j62895501082691_2_alg».proof.Proof.Chain
import proofs.«113363_j62895501082691_2_alg».proof.Proof.Spec
import proofs.«113363_j62895501082691_2_alg».proof.Proof.LibLayout3
import Idealize.ShloMosaic.Lib.StableHlo.Run
import Idealize.ShloMosaic.Lib.ValueLayout
import Idealize.ShloMosaic.PureOps.Ideal.Laws

set_option maxRecDepth 16384

noncomputable section

namespace Cert.KernelIdeal.Inputs

open Idealize.ShloMosaic Idealize.ShloMosaic.TcCoe Idealize.SL.Sem Idealize.ShloMosaic.ValueIdx
open Idealize.ShloMosaic.StableHlo
open Cert.KernelIdeal Cert.KernelIdeal.Gen Cert.GaussMean

variable (m : (ℓ : Loc nD τ sig) → Buf (Elt Ideal) ℓ)

/-- The row sums of the entrywise square of an array are its rows' squared norms. -/
theorem rowNorm_apply (x : S8192x256.Idx → EReal) (n : Fin 8192) :
    Host.reduceAdd (F := Ideal) (mulf x x) (constant (F := Ideal) S_ .f32 0x00000000#32) reducesTo_S8192x256_S8192_d1 h_S_ (ix1 n)
      = normSq x n := by
  simp only [Host.reduceAdd, Ideal.hostReduceAdd_def]
  rw [Ideal.hostReduceAdd_single reducesTo_S8192x256_S8192_d1 (by decide)]
  show Ideal.ofBits .f32 0x00000000#32 + _ = _
  rw [Ideal.ofBits_zero_f32, zero_add]
  unfold normSq
  refine Finset.sum_congr rfl fun k _ => ?_
  rw [lift_last_ix1]
  rfl

/-- The array the third window reads: the squared row norms of `x`, as a column. -/
theorem V_norm0 (c : Dev nD) : (V m c main_v2 : S8192x1.Idx → EReal)
    = broadcastInDim S8192x1 ![0] bcast_S8192_S8192x1_0
        (Host.reduceAdd (F := Ideal) (mulf (m ((c : Thread nD τ).loc main_arg0)) (m ((c : Thread nD τ).loc main_arg0)))
          (constant (F := Ideal) S_ .f32 0x00000000#32) reducesTo_S8192x256_S8192_d1 h_S_) := by
  show StableHlo.after hostOps0 (fun b => m (c, b)) (Proc.devRef .tc main_v2) = _
  after_results

/-- The array the fourth window reads: the squared row norms of `y`, as one row. -/
theorem V_norm1 (c : Dev nD) : (V m c main_v6 : S1x8192.Idx → EReal)
    = transpose S1x8192 [1, 0] (broadcastInDim S8192x1 ![0] bcast_S8192_S8192x1_0
        (Host.reduceAdd (F := Ideal) (mulf (m ((c : Thread nD τ).loc main_arg1)) (m ((c : Thread nD τ).loc main_arg1)))
          (constant (F := Ideal) S_ .f32 0x00000000#32) reducesTo_S8192x256_S8192_d1 h_S_)) transposes_S8192x1_S1x8192_1_0 := by
  show StableHlo.after hostOps0 (fun b => m (c, b)) (Proc.devRef .tc main_v6) = _
  after_results

/-- A vector made a column: entry `(n, 0)` is entry `n`. -/
theorem column_apply (v : S8192.Idx → EReal) (n : Fin 8192) (u : Fin 1) :
    broadcastInDim S8192x1 ![0] bcast_S8192_S8192x1_0 v (ix2 n u) = v (ix1 n) :=
  broadcastInDim_apply _ bcast_S8192_S8192x1_0 v (ix2 n u) (ix1 n) (fun a => match a with
    | ⟨0, _⟩ => by show n.val = if (8192 : Nat) = 1 then 0 else n.val; rw [if_neg (by decide)])

theorem V_norm0_apply (c : Dev nD) (n : Fin 8192) (u : Fin 1) :
    (V m c main_v2 : S8192x1.Idx → EReal) (ix2 n u) = normSq (m ((c : Thread nD τ).loc main_arg0)) n := by
  rw [V_norm0, column_apply]
  exact rowNorm_apply _ n

theorem V_norm1_apply (c : Dev nD) (u : Fin 1) (n : Fin 8192) :
    (V m c main_v6 : S1x8192.Idx → EReal) (ix2 u n) = normSq (m ((c : Thread nD τ).loc main_arg1)) n := by
  rw [V_norm1, transpose_ix2_apply, column_apply]
  exact rowNorm_apply _ n

/-- The index maps over the grid: at point `t` the row blocks are at `t / 4`, the column blocks at `t % 4`. -/
theorem idx_facts : ∀ t : Fin cfg0.N, win0_0.index t (0 : Fin 2) = t.val / 4 ∧ win0_0.index t (1 : Fin 2) = 0
    ∧ win0_1.index t (0 : Fin 2) = t.val % 4 ∧ win0_1.index t (1 : Fin 2) = 0
    ∧ win0_2.index t (0 : Fin 2) = t.val / 4 ∧ win0_2.index t (1 : Fin 2) = 0
    ∧ win0_3.index t (0 : Fin 2) = 0 ∧ win0_3.index t (1 : Fin 2) = t.val % 4
    ∧ win0_4.index t (0 : Fin 2) = t.val / 4 ∧ win0_4.index t (1 : Fin 2) = 0 :=
  (by decide +kernel : ∀ t : Fin grid0.N, _)

section Blocks
variable (c : Dev nD) (t : Fin cfg0.N) (i : Fin 8) (j : Fin 4) (ht : t.val = 4 * i.val + j.val)
include ht

/-- Block `i` of the rows of `x`. -/
theorem blk0_apply (p : Fin 1024) (k : Fin 256) :
    (iblk m c 0 t : S1024x256.Idx → EReal) (ix2 p k) = m ((c : Thread nD τ).loc main_arg0) (ix2 (rowOf i p) k) := by
  obtain ⟨e0, e1, -⟩ := idx_facts t
  unfold iblk
  rw [View.read_apply]
  show V m c main_arg0 (((cfg0.win 0).blk t).view.emb (ix2 p k)) = _
  rw [V_main_arg0]
  refine congrArg _ (funext fun a => Fin.ext ?_)
  match a with
  | ⟨0, _⟩ => show win0_0.index t (0 : Fin 2) * 1024 + 1 * p.val = 1024 * i.val + p.val; omega
  | ⟨1, _⟩ => show win0_0.index t (1 : Fin 2) * 256 + 1 * k.val = k.val; omega

/-- Block `j` of the rows of `y`. -/
theorem blk1_apply (q : Fin 2048) (k : Fin 256) :
    (iblk m c 1 t : S2048x256.Idx → EReal) (ix2 q k) = m ((c : Thread nD τ).loc main_arg1) (ix2 (colOf j q) k) := by
  obtain ⟨-, -, e0, e1, -⟩ := idx_facts t
  unfold iblk
  rw [View.read_apply]
  show V m c main_arg1 (((cfg0.win 1).blk t).view.emb (ix2 q k)) = _
  rw [V_main_arg1]
  refine congrArg _ (funext fun a => Fin.ext ?_)
  match a with
  | ⟨0, _⟩ => show win0_1.index t (0 : Fin 2) * 2048 + 1 * q.val = 2048 * j.val + q.val; omega
  | ⟨1, _⟩ => show win0_1.index t (1 : Fin 2) * 256 + 1 * k.val = k.val; omega

/-- The squared norms of block `i` of the rows of `x`. -/
theorem blk2_apply (p : Fin 1024) (u : Fin 1) :
    (iblk m c 2 t : S1024x1.Idx → EReal) (ix2 p u) = normSq (m ((c : Thread nD τ).loc main_arg0)) (rowOf i p) := by
  obtain ⟨-, -, -, -, e0, e1, -⟩ := idx_facts t
  unfold iblk
  rw [View.read_apply]
  refine Eq.trans ?_ (V_norm0_apply m c (rowOf i p) 0)
  show V m c main_v2 (((cfg0.win 2).blk t).view.emb (ix2 p u)) = V m c main_v2 (ix2 (rowOf i p) 0)
  refine congrArg _ (funext fun a => Fin.ext ?_)
  match a with
  | ⟨0, _⟩ => show win0_2.index t (0 : Fin 2) * 1024 + 1 * p.val = 1024 * i.val + p.val; omega
  | ⟨1, _⟩ => show win0_2.index t (1 : Fin 2) * 1 + 1 * u.val = 0; omega

/-- The squared norms of block `j` of the rows of `y`. -/
theorem blk3_apply (u : Fin 1) (q : Fin 2048) :
    (iblk m c 3 t : S1x2048.Idx → EReal) (ix2 u q) = normSq (m ((c : Thread nD τ).loc main_arg1)) (colOf j q) := by
  obtain ⟨-, -, -, -, -, -, e0, e1, -⟩ := idx_facts t
  unfold iblk
  rw [View.read_apply]
  refine Eq.trans ?_ (V_norm1_apply m c 0 (colOf j q))
  show V m c main_v6 (((cfg0.win 3).blk t).view.emb (ix2 u q)) = V m c main_v6 (ix2 0 (colOf j q))
  refine congrArg _ (funext fun a => Fin.ext ?_)
  match a with
  | ⟨0, _⟩ => show win0_3.index t (0 : Fin 2) * 1 + 1 * u.val = 0; omega
  | ⟨1, _⟩ => show win0_3.index t (1 : Fin 2) * 2048 + 1 * q.val = 2048 * j.val + q.val; omega

/-- THE TILE: the total at point `t = 4 i + j` is the sum of the Gaussian entries over tile `(i, j)`. -/
theorem T_eq : Chain.T m c t
    = tile (gauss (m ((c : Thread nD τ).loc main_arg0)) (m ((c : Thread nD τ).loc main_arg1))) i j := by
  unfold Chain.T Body.tileSum tile
  refine Finset.sum_congr rfl fun p _ => Finset.sum_congr rfl fun q _ => ?_
  unfold Body.entry gauss dot
  rw [blk2_apply m c t i j ht p 0, blk3_apply m c t i j ht 0 q,
    Finset.sum_congr rfl fun k _ => by rw [blk0_apply m c t i j ht p k, blk1_apply m c t i j ht q k]]

end Blocks

end Cert.KernelIdeal.Inputs

end
-- ==== Proof.Consts.lean ====
/-
  The three float literals whose exact values the proof uses.  The reference halves by dividing by `2.0`
  where the kernel multiplies by `-0.5`, and the kernel stores a tile's sum times `2⁻¹⁰`; each pattern
  denotes the real number its decimal spelling names exactly (all three are powers of two up to sign).
-/
import Idealize.ShloMosaic.PureOps.Ideal
import Mathlib.Data.EReal.Inv

namespace Cert.Consts

open Idealize.ShloMosaic

/-- The pattern `0x40000000` is `2`. -/
theorem ofBits_two : Ideal.ofBits .f32 0x40000000#32 = ((2 : ℝ) : EReal) := by
  simp [Ideal.ofBits, Ideal.ieee, -EReal.coe_mul]; norm_num

/-- The pattern `0xBF000000` is `-1/2`. -/
theorem ofBits_neg_half : Ideal.ofBits .f32 0xBF000000#32 = ((-(1 / 2) : ℝ) : EReal) := by
  simp [Ideal.ofBits, Ideal.ieee, -EReal.coe_mul]; norm_num

/-- The pattern `0x3A800000` is `1/1024`. -/
theorem ofBits_inv_1024 : Ideal.ofBits .f32 0x3A800000#32 = (((1 : ℝ) / ((1024 : ℕ) : ℝ) : ℝ) : EReal) := by
  simp [Ideal.ofBits, Ideal.ieee, -EReal.coe_mul]; norm_num

/-- Halving the negation by a division by `2.0` is multiplying by `-0.5`, on every extended real. -/
theorem neg_div_two (a : EReal) :
    Ideal.div (-a) (Ideal.ofBits .f32 0x40000000#32) = a * Ideal.ofBits .f32 0xBF000000#32 := by
  rw [ofBits_two, ofBits_neg_half, Ideal.div_coe (by norm_num : (2 : ℝ) ≠ 0), EReal.coe_neg, neg_mul, mul_neg]

end Cert.Consts
-- ==== Proof.OutArray.lean ====
/-
  The output array after the grid.  Only the last point of each block row (`t = 4 i + 3`) writes its block back,
  and what it writes is constant: the accumulated number of block row `i`.  The eight blocks of 8 rows tile the
  64 × 128 array, so entry `(R, l)` ends holding the number of block row `R / 8`:
  zero, then the four tile sums of that block row, each times 1/1024, added in order.
-/
import proofs.«113363_j62895501082691_2_alg».proof.Proof.Inputs
import proofs.«113363_j62895501082691_2_alg».proof.Proof.Consts
import Idealize.ShloMosaic.Lib.Pipeline.Value

set_option maxRecDepth 16384

noncomputable section

namespace Cert.KernelIdeal.OutArray

open Idealize.ShloMosaic Idealize.ShloMosaic.TcCoe Idealize.SL.Sem Idealize.ShloMosaic.ValueIdx
open Idealize.ShloMosaic.Pipeline (Dat)
open Cert.KernelIdeal Cert.KernelIdeal.Gen Cert.GaussMean

variable (m : (ℓ : Loc nD τ sig) → Buf (Elt Ideal) ℓ)

/-- The Gaussian entries of the two argument arrays as the grid finds them. -/
abbrev g (c : Dev nD) : Fin 8192 → Fin 8192 → EReal :=
  gauss (m ((c : Thread nD τ).loc main_arg0)) (m ((c : Thread nD τ).loc main_arg1))

/-- The block row an output row belongs to. -/
def blkOf (R : Fin 64) : Fin 8 := ⟨R.val / 8, by omega⟩

/-- What the output array ends holding. -/
def G (c : Dev nD) : S64x128.Idx → EReal := fun idx => blockVal (g m c) (blkOf (idx 0))

theorem G_of (c : Dev nD) (idx : S64x128.Idx) (i : Fin 8) (h : (idx 0).val / 8 = i.val) :
    G m c idx = blockVal (g m c) i := by
  unfold G
  exact congrArg _ (Fin.ext h)

/-- The accumulated number after the last point of block row `i` is the block's value. -/
theorem acc_blockVal (c : Dev nD) (i : Fin 8) (h : 4 * i.val + 3 < cfg0.N) :
    Chain.acc m c (4 * i.val + 3) h = blockVal (g m c) i := by
  have hN : cfg0.N = 32 := N_0
  rw [Chain.acc_row m c i.val h, Inputs.T_eq m c ⟨4 * i.val, by omega⟩ i 0 rfl,
    Inputs.T_eq m c ⟨4 * i.val + 1, by omega⟩ i 1 rfl, Inputs.T_eq m c ⟨4 * i.val + 2, by omega⟩ i 2 rfl,
    Inputs.T_eq m c ⟨4 * i.val + 3, h⟩ i 3 rfl]
  unfold blockVal Chain.cst c1024
  rw [Cert.Consts.ofBits_inv_1024]

theorem acc_at (c : Dev nD) (n : ℕ) (h : n < cfg0.N) (i : Fin 8) (hn : n = 4 * i.val + 3) :
    Chain.acc m c n h = blockVal (g m c) i := by
  subst hn
  exact acc_blockVal m c i h

/-- WHAT A WRITING POINT WRITES BACK is its block of `G`. -/
theorem flushed_eq (c : Dev nD) (t : Fin cfg0.N) (hf : (cfg0.win 4).flush t = true) :
    (dats m 0 c).flushed 4 t = ((cfg0.win 4).blk t).view.read (Elt Ideal) (G m c) := by
  have hN : cfg0.N = 32 := N_0
  have ht : t.val < 32 := lt_of_lt_of_eq t.isLt hN
  have h3 : t.val % 4 = 3 := (flush0_4 t).mp hf
  obtain ⟨-, -, -, -, -, -, -, -, e0, e1⟩ := Inputs.idx_facts t
  show (cfg0.win 4).cut (grid0.coords t) ((dats m 0 c).after 4 t) = _
  rw [after0_4, Chain.out_eq m c t.val t.isLt h3]
  funext y
  rw [View.read_apply]
  show Chain.acc m c t.val t.isLt = G m c (((cfg0.win 4).blk t).view.emb y)
  have hy : (y 0).val < 8 := (y 0).isLt
  rw [acc_at m c t.val t.isLt ⟨t.val / 4, by omega⟩ (by show t.val = 4 * (t.val / 4) + 3; omega)]
  refine (G_of m c _ ⟨t.val / 4, by omega⟩ ?_).symm
  show (win0_4.index t (0 : Fin 2) * 8 + 1 * (y 0).val) / 8 = t.val / 4
  omega

/-- An index of the array is in point `t`'s block iff each coordinate is in the block's range on its axis. -/
theorem mem_blk (t : Fin cfg0.N) (idx : S64x128.Idx) :
    idx ∈ ((cfg0.win 4).blk t).view.set ↔ ∀ a : Fin 2, win0_4.index t a * S8x128.size a ≤ (idx a).val
      ∧ (idx a).val < win0_4.index t a * S8x128.size a + S8x128.size a := by
  show idx ∈ ((View.whole main_v7).slice (win0_4.rect t)).set ↔ _
  rw [View.set_slice_whole, Rect.mem_set_unit]
  exact Iff.rfl

/-- Every index is in the block of the last point of its block row. -/
theorem cover (idx : S64x128.Idx) :
    ∃ t : Fin cfg0.N, (cfg0.win 4).flush t = true ∧ idx ∈ ((cfg0.win 4).blk t).view.set := by
  have hN : cfg0.N = 32 := N_0
  have h0 : (idx 0).val < 64 := (idx 0).isLt
  have h1 : (idx 1).val < 128 := (idx 1).isLt
  have hlt : 4 * ((idx 0).val / 8) + 3 < cfg0.N := by omega
  obtain ⟨-, -, -, -, -, -, -, -, e0, e1⟩ := Inputs.idx_facts ⟨4 * ((idx 0).val / 8) + 3, hlt⟩
  dsimp only at e0 e1
  refine ⟨⟨4 * ((idx 0).val / 8) + 3, hlt⟩, (flush0_4 _).mpr (by dsimp only; omega), ?_⟩
  rw [mem_blk]
  intro a
  match a with
  | ⟨0, _⟩ =>
    show win0_4.index ⟨4 * ((idx 0).val / 8) + 3, hlt⟩ (0 : Fin 2) * 8 ≤ (idx 0).val
      ∧ (idx 0).val < win0_4.index ⟨4 * ((idx 0).val / 8) + 3, hlt⟩ (0 : Fin 2) * 8 + 8
    omega
  | ⟨1, _⟩ =>
    show win0_4.index ⟨4 * ((idx 0).val / 8) + 3, hlt⟩ (1 : Fin 2) * 128 ≤ (idx 1).val
      ∧ (idx 1).val < win0_4.index ⟨4 * ((idx 0).val / 8) + 3, hlt⟩ (1 : Fin 2) * 128 + 128
    omega

/-- THE ARRAY after the grid. -/
theorem final (c : Dev nD) : (dats m 0 c).arrAt 4 cfg0.N = G m c :=
  (dats m 0 c).arrAt_eq_of_cover 4 (G m c) (flushed_eq m c) (cover)

end Cert.KernelIdeal.OutArray

end
-- ==== Proof.Result.lean ====
/-
  The kernel's result.  After the grid the program sums the 64 × 128 output array and divides by `2²⁶`.
  The array holds, in block row `i`, the four scaled tile sums of that block row, so its sum is the sum of the
  Gaussian entries over all pairs, and the result is their mean — the same number the reference computes.
-/
import proofs.«113363_j62895501082691_2_alg».proof.Proof.OutArray
import Idealize.ShloMosaic.Lib.StableHlo.Run
import Idealize.ShloMosaic.PureOps.Ideal.Laws

set_option maxRecDepth 16384

noncomputable section

namespace Cert.KernelIdeal.Result

open Idealize.ShloMosaic Idealize.ShloMosaic.TcCoe Idealize.SL.Sem Idealize.ShloMosaic.ValueIdx
open Idealize.ShloMosaic.StableHlo
open Idealize.ShloMosaic.Pipeline (Dat)
open Cert.KernelIdeal Cert.KernelIdeal.Gen Cert.GaussMean

variable (m : (ℓ : Loc nD τ sig) → Buf (Elt Ideal) ℓ) (ρ : Dev nD → PrngReg)

/-- The sum of a 64 × 128 array over both axes, from zero: the sum of its entries. -/
theorem total_eq (Gv : S64x128.Idx → EReal) (i0 : S_.Idx) :
    Host.reduceAdd (F := Ideal) Gv (constant (F := Ideal) S_ .f32 0x00000000#32) reducesTo_S64x128_S_d0_1 h_S_ i0
      = ∑ idx, Gv idx := by
  simp only [Host.reduceAdd, Ideal.hostReduceAdd_def]
  rw [Ideal.hostReduceAdd_total reducesTo_S64x128_S_d0_1 (fun b => b.elim0)]
  show Ideal.ofBits .f32 0x00000000#32 + _ = _
  rw [Ideal.ofBits_zero_f32, zero_add]

/-- The mean of the two argument arrays as the grid finds them. -/
abbrev value (c : Dev nD) : EReal :=
  mean (m ((c : Thread nD τ).loc main_arg0)) (m ((c : Thread nD τ).loc main_arg1))

/-- The tail's operations applied to the output array give the mean. -/
theorem tail_of_G (c : Dev nD) :
    Host.divf (F := Ideal) (Host.reduceAdd (F := Ideal) (OutArray.G m c) (constant (F := Ideal) S_ .f32 0x00000000#32)
        reducesTo_S64x128_S_d0_1 h_S_) (constant (F := Ideal) S_ .f32 0x4C800000#32)
      = fun _ => value m c := by
  funext i0
  show Ideal.div (Host.reduceAdd (F := Ideal) (OutArray.G m c) (constant (F := Ideal) S_ .f32 0x00000000#32)
    reducesTo_S64x128_S_d0_1 h_S_ i0) (Ideal.ofBits .f32 0x4C800000#32) = _
  rw [total_eq, sum_out (OutArray.g m c) (OutArray.G m c) (fun i r l => OutArray.G_of m c _ i (by
    show (8 * i.val + r.val) / 8 = i.val
    have := r.isLt
    omega))]
  rfl

/-- The operations after the grid, applied to the arrays as the grid leaves them, put the mean in the result buffer. -/
theorem tail_eq (c : Dev nD) :
    (Pipeline.afterTail₀ cfgs (dats m) 0 (V0 m) [hostOps1] c main_v9 : S_.Idx → EReal) = fun _ => value m c := by
  unfold Pipeline.afterTail₀
  show StableHlo.after hostOps1 _ (Proc.devRef .tc main_v9) = _
  after_results
  rw [show Pipeline.withArrays (cfgs 0).spec c (V0 m c) (fun w => (dats m 0 c).arrAt w (cfgs 0).N) (Proc.devRef .tc main_v7)
      = OutArray.G m c from (Pipeline.withArrays_arr spec0 launch0.win.arr_inj c _ _ 4).trans (OutArray.final m c)]
  exact tail_of_G m c

/-- THE RUN, READ: the result buffer at the mean, the arguments unchanged. -/
theorem run : θ_run defs (onTc (τ := τ) (main (F := Ideal))) ⟨m, fun _ => 0, ρ⟩ fun r => ∀ c : Dev nD,
      r.2.mem ((c.tc : Thread nD τ).loc main_v9) = (fun _ => value m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).2 main_v9 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Result

end
-- ==== Proof.RefValue.lean ====
/-
  The reference, read entry by entry on the extended reals.  It forms the two vectors of squared row norms, adds
  them as a column and a row over the 8192 × 8192 pairs, subtracts twice the matrix of inner products, clamps at
  zero, negates, divides by two and exponentiates: entry `(n, m)` is `gauss x y n m` (negating and halving by a
  division is multiplying by `-1/2`).  Its result is the sum of all entries divided by `2²⁶`.
-/
import proofs.«113363_j62895501082691_2_alg».proof.Proof.Gen.ReferenceIdeal.Read
import proofs.«113363_j62895501082691_2_alg».proof.Proof.Spec
import proofs.«113363_j62895501082691_2_alg».proof.Proof.Consts

noncomputable section

namespace Cert.ReferenceIdeal.RefValue

open Idealize.ShloMosaic Idealize.ShloMosaic.ValueIdx
open Cert.ReferenceIdeal Cert.ReferenceIdeal.Gen Cert.ReferenceIdeal.Read Cert.GaussMean

/-- Entry `(n, m)` of the reference's array of exponentials. -/
theorem entry_eq (x y : (⟨S8192x256, .f32⟩ : BufTy).Contents (Elt Ideal)) (n m : Fin 8192) :
    val_main_v19 (F := Ideal) x y (ix2 n m) = gauss x y n m := by
  have e1 : ∀ k : Fin 256, idx_main_v1 (idx_main_v4 (idx_main_v6 (ix2 n m))) k = ix2 n k := fun k =>
    funext fun a => Fin.ext (by match a with | ⟨0, _⟩ => rfl | ⟨1, _⟩ => rfl)
  have e2 : ∀ k : Fin 256, idx_main_v3 (idx_main_v5 (idx_main_v7 (ix2 n m))) k = ix2 m k := fun k =>
    funext fun a => Fin.ext (by match a with | ⟨0, _⟩ => rfl | ⟨1, _⟩ => rfl)
  have e3 : ∀ k : Fin 256, lidx_main_v10 (ix2 n m) k = ix2 n k := fun k =>
    funext fun a => Fin.ext (by match a with | ⟨0, _⟩ => rfl | ⟨1, _⟩ => rfl)
  have e4 : ∀ k : Fin 256, idx_main_v9 (ridx_main_v10 (ix2 n m) k) = ix2 m k := fun k =>
    funext fun a => Fin.ext (by match a with | ⟨0, _⟩ => rfl | ⟨1, _⟩ => rfl)
  rw [val_main_v19_apply, val_main_v18_apply, val_main_v16_apply, val_main_v15_apply, val_main_v13_apply,
    val_main_v8_apply, val_main_v6_apply, val_main_v4_apply, val_main_v1_apply, val_main_v7_apply, val_main_v5_apply,
    val_main_v3_apply, val_main_v12_apply, val_main_v11_apply, val_main_v10_apply, val_main_v14_apply,
    val_main_v17_apply]
  simp only [val_main_v0_apply, val_main_v2_apply, val_main_v9_apply, val_main_cst_apply, val_main_cst_0_apply,
    val_main_cst_1_apply, val_main_cst_2_apply, val_main_cst_3_apply, e1, e2, e3, e4,
    Ideal.hostUnary_exp_def, Ideal.hostDivf_def, Ideal.hostNegf_def, Ideal.negf_def, Ideal.maximumf_def,
    Ideal.subf_def, Ideal.addf_def, Ideal.mulf_def, Ideal.ofBits_def, Ideal.ofBits_zero_f32, zero_add,
    Cert.Consts.neg_div_two]
  simp only [gauss, normSq, dot, Ideal.ofBits_zero_f32]

/-- The reference's result: the mean. -/
theorem result_eq (x y : (⟨S8192x256, .f32⟩ : BufTy).Contents (Elt Ideal)) :
    val_main_v21 (F := Ideal) x y = fun _ => mean x y := by
  funext i0
  rw [val_main_v21_apply, val_main_v20_apply]
  simp only [Ideal.hostDivf_def, val_main_cst_5_apply, val_main_cst_4_apply, Ideal.ofBits_def, Ideal.ofBits_zero_f32, zero_add]
  unfold mean
  refine congrArg (fun s => Ideal.div s _) ?_
  rw [sum_idx2]
  exact Finset.sum_congr rfl fun n _ => Finset.sum_congr rfl fun m _ => entry_eq x y n m

end Cert.ReferenceIdeal.RefValue

end
-- ==== Proof.lean ====
/-
  The mean of a Gaussian kernel matrix, computed tile by tile, equals the mean computed at once.

  For two arrays `x`, `y` of 8192 rows and 256 columns both programs compute the mean over all 8192 × 8192 pairs
  `(n, m)` of `exp (-max (‖x n‖² + ‖y m‖² - 2 ⟨x n, y m⟩, 0) / 2)`.

  The reference forms the whole 8192 × 8192 array, sums it and divides by `2²⁶`.

  The kernel first computes the two vectors of squared row norms, then walks a grid of 8 × 4 tiles of
  1024 × 2048 pairs.  For each tile it forms the entries (the inner products by a matrix product whose operands
  pass through a narrower float format, which changes nothing over the extended reals), sums them, multiplies
  the total by `2⁻¹⁰` and adds it to every entry of an 8 × 128 accumulator, which restarts from zero at the first
  tile of each block row and is copied to block `i` of a 64 × 128 output after the last.  Finally the output is
  summed and divided by `2²⁶`.

  Over the extended reals the two agree for every input, finite or not:
  * entry by entry: multiplying by `-1/2` is negating and dividing by `2`;
  * each output block holds 1024 equal entries `T₀/1024 + T₁/1024 + T₂/1024 + T₃/1024`, and 1024 copies of
    `T/1024` add up to `T` for every extended real `T`, because repeated addition is multiplication by the number
    of copies and `1024 · (1/1024) = 1`;
  * the rest is a regrouping of one finite sum, which only uses that addition is commutative and associative.
  So the precondition that the inputs are finite is not used.

  The kernel read over the extended reals is the kernel's own text (nothing was rewritten), so the statement
  relating the two readings is the trivial one.  The three programs terminate without fault and leave their
  arguments unchanged.
-/
import proofs.«113363_j62895501082691_2_alg».proof.Defs
import proofs.«113363_j62895501082691_2_alg».proof.Proof.Gen.Kernel
import proofs.«113363_j62895501082691_2_alg».proof.Proof.Gen.Kernel.Skeleton
import proofs.«113363_j62895501082691_2_alg».proof.Proof.Gen.Kernel.Launch
import proofs.«113363_j62895501082691_2_alg».proof.Proof.Gen.Kernel.Points
import proofs.«113363_j62895501082691_2_alg».proof.Proof.Gen.Kernel.Frame
import proofs.«113363_j62895501082691_2_alg».proof.Proof.Gen.KernelIdeal
import proofs.«113363_j62895501082691_2_alg».proof.Proof.Gen.KernelIdeal.Skeleton
import proofs.«113363_j62895501082691_2_alg».proof.Proof.Gen.KernelIdeal.Launch
import proofs.«113363_j62895501082691_2_alg».proof.Proof.Gen.KernelIdeal.Points
import proofs.«113363_j62895501082691_2_alg».proof.Proof.Gen.KernelIdeal.Frame
import proofs.«113363_j62895501082691_2_alg».proof.Proof.Gen.ReferenceIdeal
import proofs.«113363_j62895501082691_2_alg».proof.Proof.Gen.Pre_finite_inputs
import proofs.«113363_j62895501082691_2_alg».proof.Proof.Gen.ReferenceIdeal.Run
import proofs.«113363_j62895501082691_2_alg».proof.Proof.Gen.ReferenceIdeal.Read
import proofs.«113363_j62895501082691_2_alg».proof.Proof.Result
import proofs.«113363_j62895501082691_2_alg».proof.Proof.RefValue
import Idealize.ShloMosaic.Adequacy
import Idealize.ShloMosaic.Init

noncomputable section

namespace Cert.Proof

open Idealize.ShloMosaic Idealize.SL.Sem

/-- The kernel terminates without fault and leaves its arguments unchanged. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading over the extended reals. -/
theorem preserves : Cert.preserves_Kernel_KernelIdeal := trivial

/-- Both programs end with the mean of the Gaussian entries of the arguments, which agree. -/
theorem algebraic : Cert.algebraic_KernelIdeal_ReferenceIdeal := by
  intro m ρ m' ρ' _ hagree
  refine ⟨fun c => (fun _ => Cert.KernelIdeal.Result.value m c), Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.ReferenceIdeal.RefValue.result_eq, (hagree c).1, (hagree c).2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
